-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1 .f32) (main_arg6 : IVec S1600000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg6 main_v24
  let main_c_9 : IVec S_ 32 := constantI S_ 32 20000#32
  let main_v26 : IVec S1600000 32 := broadcastInDim S1600000 ![] bcast_S_S1600000 main_c_9
  let main_v27 : IVec S1600000 1 := cmpi .slt main_arg6 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x128 .f32) (main_arg1 : FVec F S128x128 .f32) (main_arg2 : FVec F S128 .f32) (main_arg3 : FVec F S1x128 .f32) (main_arg4 : FVec F S1 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S1600000x128 : Shape := ⟨2, ![1600000, 128]⟩
abbrev S20000x128 : Shape := ⟨2, ![20000, 128]⟩
abbrev S20000x1 : Shape := ⟨2, ![20000, 1]⟩
abbrev S2000x128 : Shape := ⟨2, ![2000, 128]⟩
abbrev S2000x1 : Shape := ⟨2, ![2000, 1]⟩
abbrev S100000x1 : Shape := ⟨2, ![100000, 1]⟩
abbrev S1x1 : Shape := ⟨2, ![1, 1]⟩
abbrev S10000x128 : Shape := ⟨2, ![10000, 128]⟩
abbrev S10000x1 : Shape := ⟨2, ![10000, 1]⟩
abbrev S10000 : Shape := ⟨1, ![10000]⟩

abbrev nBuf : Space → Nat
  | .hbm => 73
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S20000, .f32⟩
  | .hbm, ⟨18, _⟩ => ⟨S1600000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S20000x128, .f32⟩
  | .hbm, ⟨34, _⟩ => ⟨S1600000x1, .i32⟩
  | .hbm, ⟨35, _⟩ => ⟨S20000x128, .f32⟩
  | .hbm, ⟨36, _⟩ => ⟨S20000x1, .f32⟩
  | .hbm, ⟨37, _⟩ => ⟨S20000x128, .f32⟩
  | .hbm, ⟨38, _⟩ => ⟨S20000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S_, .f32⟩
  | .hbm, ⟨49, _⟩ => ⟨S20000, .f32⟩
  | .hbm, ⟨50, _⟩ => ⟨S1600000x1, .i32⟩
  | .hbm, ⟨51, _⟩ => ⟨S20000, .f32⟩
  | .hbm, ⟨52, _⟩ => ⟨S20000, .f32⟩
  | .hbm, ⟨53, _⟩ => ⟨S20000x1, .f32⟩
  | .hbm, ⟨54, _⟩ => ⟨S20000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S1x128, .f32⟩
  | .hbm, ⟨70, _⟩ => ⟨S1x1, .f32⟩
  | .hbm, ⟨71, _⟩ => ⟨S100000x1, .f32⟩
  | .hbm, ⟨72, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S20000_S20000x1 : S20000.ShapeCasts S20000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S1600000x128 : Shape := ⟨2, ![1600000, 128]⟩
abbrev S20000x128 : Shape := ⟨2, ![20000, 128]⟩
abbrev S20000x1 : Shape := ⟨2, ![20000, 1]⟩
abbrev S100000x1 : Shape := ⟨2, ![100000, 1]⟩
abbrev S128x1 : Shape := ⟨2, ![128, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S20000, .f32⟩
  | .hbm, ⟨18, _⟩ => ⟨S1600000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S20000x128, .f32⟩
  | .hbm, ⟨34, _⟩ => ⟨S1600000x1, .i32⟩
  | .hbm, ⟨35, _⟩ => ⟨S20000x128, .f32⟩
  | .hbm, ⟨36, _⟩ => ⟨S20000x1, .f32⟩
  | .hbm, ⟨37, _⟩ => ⟨S20000x128, .f32⟩
  | .hbm, ⟨38, _⟩ => ⟨S20000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S_, .f32⟩
  | .hbm, ⟨49, _⟩ => ⟨S20000, .f32⟩
  | .hbm, ⟨50, _⟩ => ⟨S1600000x1, .i32⟩
  | .hbm, ⟨51, _⟩ => ⟨S20000, .f32⟩
  | .hbm, ⟨52, _⟩ => ⟨S20000, .f32⟩
  | .hbm, ⟨53, _⟩ => ⟨S20000x128, .f32⟩
  | .hbm, ⟨54, _⟩ => ⟨S20000, .f32⟩
  | .hbm, ⟨55, _⟩ => ⟨S20000x1, .f32⟩
  | .hbm, ⟨56, _⟩ => ⟨S20000x128, .f32⟩
  | .hbm, ⟨57, _⟩ => ⟨S20000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S128x1, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call0_cst : Ref sig .tc := ⟨.hbm, 78, rfl⟩
abbrev main_call0_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S100000_S1600000x1_S1600000_n_0_n_n_0_1_1_wf : GatherDims.WF S100000 S1600000x1 S1600000 [] [0] [] [0] [] 1 ![1]
  dot_S20000x128_S128x128_S20000x128_1_0_0_1_n_n_wf : DotDims.WF S20000x128 S128x128 S20000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run, with its result buffer named: every weakly fair execution terminates with the
  result array at the contents the last host stretch leaves from the second region's exit contents (the generated fold
  `W5` through the five segments: host operations, the edge region, host operations, the node region, the final reshape),
  and with the seven argument arrays unchanged.
-/
import proofs.«174897_j59811714564726_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the five segments, read at the result buffer and at each argument. -/
theorem run_result : θ_run defs (onTc (τ := τ) (main (F := F))) ⟨m, fun _ => 0, ρ⟩ (fun r => ∀ c : Dev nD,
      r.2.mem ((c.tc : Thread nD τ).loc main_v51) = W5 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v51 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelRun

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KernelPay.lean ====
/-
  What the two kernel bodies store, read at an index, at the ideal instance.

  The edge body stores, for its block of 2000 hyperedges, `(he_blk · w) * rsqrt(deg_blk)`: entry `(r, k)` is the row `r` of
  the block against column `k` of the weights, times the reciprocal square root of the block's degree entry of row `r`
  (the two casts to bf16 are the identity on exact values, and the matrix product into a zero accumulator is the plain sum).

  The node body stores, for its block of 10000 nodes, `sum_k max(agg[r,k] * rsqrt(deg[r]) + b[k], 0) * w_out[k] + b_out`:
  the lane sum along the feature axis is the plain sum over `k`.
-/
import proofs.«174897_j59811714564726_1_alg».proof.Proof.Gen.KernelIdeal.Skeleton
import proofs.«174897_j59811714564726_1_alg».proof.Proof.LibDense
import proofs.«174897_j59811714564726_1_alg».proof.Proof.LibKeepdims
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Idealize.ShloMosaic Idealize.ShloMosaic.ValueIdx

/-- The edge body's stored value at `(r, k)`. -/
theorem edge_pay_apply (x0 : Vec Ideal S2000x128 .f32) (x1 : Vec Ideal S128x128 .f32) (x2 : Vec Ideal S2000x1 .f32)
    (r : Fin 2000) (k : Fin 128) :
    k0_pay1 x0 x1 x2 (ix2 r k)
      = (∑ j : Fin 128, x0 (ix2 r j) * x1 (ix2 j k)) * Ideal.rsqrt (x2 (ix2 r (0 : Fin 1))) := by
  have hm : (matmul (F := Ideal) dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32)) (ix2 r k) = ∑ j : Fin 128, x0 (ix2 r j) * x1 (ix2 j k) := by
    rw [shapeCast_self]
    exact Cert.Lib.Dense.matmul_zero_at (M := 2000) (K := 128) (N := 128) dot_S2000x128_S128x128_S2000x128_1_0_0_1_n_n
      rfl rfl rfl rfl rfl rfl (truncf .bf16 x0 bitsLt_bf16_f32) (truncf .bf16 x1 bitsLt_bf16_f32) r k
  have hb : (broadcastTo S2000x128 (rsqrt (F := Ideal) (φ := .f32) (shapeCast S2000x1 x2 shapeCasts_S2000x1_S2000x1)) broadcasts_S2000x1_S2000x128) (ix2 r k)
      = Ideal.rsqrt (x2 (ix2 r (0 : Fin 1))) := by
    rw [shapeCast_self]
    exact Cert.Lib.Keepdims.broadcastTo_a1_ab_apply (a := 2000) (b := 128) (rsqrt (F := Ideal) (φ := .f32) x2) broadcasts_S2000x1_S2000x128 r k
  exact congrArg₂ (· * ·) hm hb

/-- The node body's stored value at `(r, u)` (`u` the unit coordinate of the output column). -/
theorem node_pay_apply (v0 : Vec Ideal S10000x128 .f32) (v2 : Vec Ideal S10000x1 .f32) (v7 v13 : Vec Ideal S1x128 .f32)
    (v18 : Vec Ideal S1x1 .f32) (r : Fin 10000) (u : Fin 1) :
    k1_pay1 v0 v2 v7 v13 v18 (ix2 r u)
      = (∑ k : Fin 128, max (v0 (ix2 r k) * Ideal.rsqrt (v2 (ix2 r (0 : Fin 1))) + v7 (ix2 (0 : Fin 1) k)) 0
            * v13 (ix2 (0 : Fin 1) k)) + v18 (ix2 (0 : Fin 1) u) := by
  unfold k1_pay1
  dsimp only
  simp only [shapeCast_self]
  show (shapeCast S10000x1 _ _ (ix2 r u) : EReal) + broadcastTo S10000x1 v18 _ (ix2 r u) = _
  refine congrArg₂ (· + ·) ((Cert.Lib.Keepdims.shapeCast_a_a1_apply _ _ r u).trans
    ((Cert.Lib.Keepdims.rowSum_apply _ _ _ _ _ r).trans (Finset.sum_congr rfl fun k _ => ?_))) (broadcastTo_1b_ab_apply _ _ r u)
  show (max ((v0 (ix2 r k) : EReal) * (broadcastTo S10000x128 (rsqrt (F := Ideal) (φ := .f32) v2) _ (ix2 r k)) + broadcastTo S10000x128 v7 _ (ix2 r k))
      (Ideal.ofBits .f32 0x00000000#32)) * broadcastTo S10000x128 v13 _ (ix2 r k) = _
  refine congrArg₂ (· * ·) (congrArg₂ max (congrArg₂ (· + ·) (congrArg₂ (· * ·) rfl ?_) ?_) Ideal.ofBits_zero_f32) ?_
  · exact Cert.Lib.Keepdims.broadcastTo_a1_ab_apply (rsqrt (F := Ideal) (φ := .f32) v2) _ r k
  · exact broadcastTo_1b_ab_apply v7 _ r k
  · exact broadcastTo_1b_ab_apply v13 _ r k

end Cert.KernelPay

end
-- ==== Proof.KernelArr.lean ====
/-
  The two kernel regions' output arrays as whole-array functions of the arrays each region finds on entry.

  Region 0 runs over 10 blocks of 2000 hyperedges; block `t` of the output is the edge body's value of block `t` of the
  hyperedge features, the whole weight matrix and block `t` of the degree column. Since each stored entry `(r, k)` depends on
  row `r` of its own block only, every block is the restriction of ONE function of the whole arrays (`edgeMsg`), and the ten
  blocks tile the 20000 rows: the array ends holding `edgeMsg`.

  Region 1 runs over 10 blocks of 10000 nodes in the same way (`nodeOut`), the bias row, readout row and readout bias
  being read whole at every point.
-/
import proofs.«174897_j59811714564726_1_alg».proof.Proof.Gen.KernelIdeal.Frame
import proofs.«174897_j59811714564726_1_alg».proof.Proof.KernelPay
import Idealize.ShloMosaic.Lib.Pipeline.Value

set_option maxRecDepth 16384

noncomputable section

namespace Cert.KernelArr

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the edge messages -/

/-- Entry `(e, k)`: row `e` of the hyperedge features against column `k` of the weights, times `rsqrt` of the degree of `e`. -/
def edgeMsg (he : S20000x128.Idx → EReal) (w : S128x128.Idx → EReal) (d : S20000x1.Idx → EReal) : S20000x128.Idx → EReal :=
  fun i => (∑ j : Fin 128, he (ix2 (⟨(i 0).val, (i 0).isLt⟩ : Fin 20000) j) * w (ix2 j (⟨(i 1).val, (i 1).isLt⟩ : Fin 128)))
    * Ideal.rsqrt (d (ix2 (⟨(i 0).val, (i 0).isLt⟩ : Fin 20000) (0 : Fin 1)))

/-- The block index maps over the grid: row blocks move with the point, everything else stays at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `edgeMsg` of the entry arrays. -/
theorem flushed0 (c : Dev nD) (t : Fin cfg0.N) :
    (dat0 V c).flushed 3 t = ((cfg0.win 3).blk t).view.read (Elt Ideal)
      (edgeMsg (V c main_v23) (V c main_arg1) (V c main_v35)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨e0, e1, e2, e3, e4, e5, e6, e7⟩ := idx_facts0 t
  funext y
  have hy : (y : S2000x128.Idx) = ix2 (y 0) (y 1) := eq_ix2 y
  have h0 : (y 0).val < 2000 := (y 0).isLt
  have h1 : (y 1).val < 128 := (y 1).isLt
  refine (congrArg (k0_pay1 (iblk0 V c 0 t) (iblk0 V c 1 t) (iblk0 V c 2 t)) hy).trans
    ((Cert.KernelPay.edge_pay_apply (iblk0 V c 0 t) (iblk0 V c 1 t) (iblk0 V c 2 t) (y 0) (y 1)).trans ?_)
  show _ = edgeMsg (V c main_v23) (V c main_arg1) (V c main_v35) (((cfg0.win 3).blk t).view.emb y)
  unfold edgeMsg
  refine congrArg₂ (· * ·) (Finset.sum_congr rfl fun j _ => congrArg₂ (· * ·) ?_ ?_) (congrArg Ideal.rsqrt ?_)
  · show V c main_v23 (((cfg0.win 0).blk t).view.emb (ix2 (y 0) j)) = V c main_v23 _
    refine congrArg (V c main_v23) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 128 + 1 * j.val = j.val; omega
  · show V c main_arg1 (((cfg0.win 1).blk t).view.emb (ix2 j (y 1))) = V c main_arg1 _
    refine congrArg (V c main_arg1) (funext fun a => Fin.ext ?_)
    match a with
    | ⟨0, _⟩ => show win0_1.index t (0 : Fin 2) * 128 + 1 * j.val = j.val; omega
    | ⟨1, _⟩ => show win0_1.index t (1 : Fin 2) * 128 + 1 * (y 1).val = win0_3.index t (1 : Fin 2) * 128 + 1 * (y 1).val; omega
  · show V c main_v35 (((cfg0.win 2).blk t).view.emb (ix2 (y 0) (0 : Fin 1))) = V c main_v35 _
    refine congrArg (V c main_v35) (funext fun a => Fin.ext ?_)
    match a with
    | ⟨0, _⟩ => show win0_2.index t (0 : Fin 2) * 2000 + 1 * (y 0).val = win0_3.index t (0 : Fin 2) * 2000 + 1 * (y 0).val; omega
    | ⟨1, _⟩ => show win0_2.index t (1 : Fin 2) * 1 + 1 * 0 = 0; omega

/-- An index is in point `t`'s output block iff each coordinate is in the block's range. -/
theorem mem_blk0 (t : Fin cfg0.N) (i : S20000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v36).slice (win0_3.rect t)).set ↔ _
  rw [View.set_slice_whole, Rect.mem_set_unit]
  exact Iff.rfl

/-- The ten row blocks cover the array: row `e` is in block `e / 2000`. -/
theorem cover0 (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 10 := N_0
  refine ⟨⟨(i 0).val / 2000, by rw [hN]; omega⟩, flush0_3 _, ?_⟩
  rw [mem_blk0]
  obtain ⟨-, -, -, -, -, -, e6, e7⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- REGION 0's OUTPUT ARRAY after the run. -/
theorem edge_array (c : Dev nD) :
    (dat0 V c).arrAt 3 cfg0.N = edgeMsg (V c main_v23) (V c main_arg1) (V c main_v35) :=
  (dat0 V c).arrAt_eq_of_cover 3 _ (fun t _ => flushed0 V c t) cover0

/-! ## Region 1: the node readout -/

/-- Entry `(n, 0)`: `∑_k max(agg[n,k] · rsqrt(deg[n]) + b[k], 0) · w_out[k] + b_out`. -/
def nodeOut (agg : S100000x128.Idx → EReal) (d : S100000x1.Idx → EReal) (b : S1x128.Idx → EReal) (wo : S1x128.Idx → EReal)
    (bo : S1x1.Idx → EReal) : S100000x1.Idx → EReal :=
  fun i => (∑ k : Fin 128, max (agg (ix2 (⟨(i 0).val, (i 0).isLt⟩ : Fin 100000) k)
        * Ideal.rsqrt (d (ix2 (⟨(i 0).val, (i 0).isLt⟩ : Fin 100000) (0 : Fin 1))) + b (ix2 (0 : Fin 1) k)) 0
      * wo (ix2 (0 : Fin 1) k)) + bo (ix2 (0 : Fin 1) (0 : Fin 1))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `nodeOut` of the entry arrays. -/
theorem flushed1 (c : Dev nD) (t : Fin cfg1.N) :
    (dat1 V c).flushed 5 t = ((cfg1.win 5).blk t).view.read (Elt Ideal)
      (nodeOut (V c main_v46) (V c main_v47) (V c main_v48) (V c main_arg3) (V c main_v49)) := by
  show (cfg1.win 5).cut (grid1.coords t) ((dat1 V c).after 5 t) = _
  rw [after1_5]
  unfold out1_5
  rw [View.canon_unit_zero hz]
  simp only [View.ld_unit_zero (S := S10000x128) hz, View.ld_unit_zero (S := S10000x1) hz, View.ld_unit_zero (S := S1x128) hz,
    View.ld_unit_zero (S := S1x1) hz]
  obtain ⟨e0, e1, e2, e3, e4, e5, e6, e7, e8, e9, e10, e11⟩ := idx_facts1 t
  funext y
  have hy : (y : S10000x1.Idx) = ix2 (y 0) (y 1) := eq_ix2 y
  have h0 : (y 0).val < 10000 := (y 0).isLt
  have h1 : (y 1).val < 1 := (y 1).isLt
  refine (congrArg (k1_pay1 (iblk1 V c 0 t) (iblk1 V c 1 t) (iblk1 V c 2 t) (iblk1 V c 3 t) (iblk1 V c 4 t)) hy).trans
    ((Cert.KernelPay.node_pay_apply (iblk1 V c 0 t) (iblk1 V c 1 t) (iblk1 V c 2 t) (iblk1 V c 3 t) (iblk1 V c 4 t) (y 0) (y 1)).trans ?_)
  show _ = nodeOut (V c main_v46) (V c main_v47) (V c main_v48) (V c main_arg3) (V c main_v49) (((cfg1.win 5).blk t).view.emb y)
  unfold nodeOut
  refine congrArg₂ (· + ·) (Finset.sum_congr rfl fun k _ => congrArg₂ (· * ·)
    (congrArg₂ max (congrArg₂ (· + ·) (congrArg₂ (· * ·) ?_ (congrArg Ideal.rsqrt ?_)) ?_) rfl) ?_) ?_
  · show V c main_v46 (((cfg1.win 0).blk t).view.emb (ix2 (y 0) k)) = V c main_v46 _
    refine congrArg (V c main_v46) (funext fun a => Fin.ext ?_)
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 128 + 1 * k.val = k.val; omega
  · show V c main_v47 (((cfg1.win 1).blk t).view.emb (ix2 (y 0) (0 : Fin 1))) = V c main_v47 _
    refine congrArg (V c main_v47) (funext fun a => Fin.ext ?_)
    match a with
    | ⟨0, _⟩ => show win1_1.index t (0 : Fin 2) * 10000 + 1 * (y 0).val = win1_5.index t (0 : Fin 2) * 10000 + 1 * (y 0).val; omega
    | ⟨1, _⟩ => show win1_1.index t (1 : Fin 2) * 1 + 1 * 0 = 0; omega
  · show V c main_v48 (((cfg1.win 2).blk t).view.emb (ix2 (0 : Fin 1) k)) = V c main_v48 _
    refine congrArg (V c main_v48) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_arg3 (((cfg1.win 3).blk t).view.emb (ix2 (0 : Fin 1) k)) = V c main_arg3 _
    refine congrArg (V c main_arg3) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v49 (((cfg1.win 4).blk t).view.emb (ix2 (0 : Fin 1) (y 1))) = V c main_v49 _
    refine congrArg (V c main_v49) (funext fun a => Fin.ext ?_)
    match a with
    | ⟨0, _⟩ => show win1_4.index t (0 : Fin 2) * 1 + 1 * 0 = 0; omega
    | ⟨1, _⟩ => show win1_4.index t (1 : Fin 2) * 1 + 1 * (y 1).val = 0; omega

theorem mem_blk1 (t : Fin cfg1.N) (i : S100000x1.Idx) :
    i ∈ ((cfg1.win 5).blk t).view.set ↔ ∀ a : Fin 2, win1_5.index t a * S10000x1.size a ≤ (i a).val
      ∧ (i a).val < win1_5.index t a * S10000x1.size a + S10000x1.size a := by
  show i ∈ ((View.whole main_v50).slice (win1_5.rect t)).set ↔ _
  rw [View.set_slice_whole, Rect.mem_set_unit]
  exact Iff.rfl

/-- The ten row blocks cover the array: node `n` is in block `n / 10000`. -/
theorem cover1 (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 10 := N_1
  refine ⟨⟨(i 0).val / 10000, by rw [hN]; omega⟩, flush1_5 _, ?_⟩
  rw [mem_blk1]
  obtain ⟨-, -, -, -, -, -, -, -, -, -, e10, e11⟩ := idx_facts1 ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e10]; show (i 0).val / 10000 * 10000 ≤ (i 0).val ∧ (i 0).val < (i 0).val / 10000 * 10000 + 10000; omega
  | ⟨1, _⟩ =>
    show win1_5.index _ (1 : Fin 2) * 1 ≤ (i 1).val ∧ (i 1).val < win1_5.index _ (1 : Fin 2) * 1 + 1
    rw [e11]; omega

/-- REGION 1's OUTPUT ARRAY after the run. -/
theorem node_array (c : Dev nD) :
    (dat1 V c).arrAt 5 cfg1.N = nodeOut (V c main_v46) (V c main_v47) (V c main_v48) (V c main_arg3) (V c main_v49) :=
  (dat1 V c).arrAt_eq_of_cover 5 _ (fun t _ => flushed1 V c t) cover1

end Cert.KernelArr

end
-- ==== Proof.KernelFold.lean ====
/-
  The kernel program's result array as one term of the seven argument arrays.

  The buffer contents at the segment boundaries are read backwards from the result:
  the result is the final reshape of the node region's output array; that array is `nodeOut` of the arrays the region finds
  on entry — the scatter-add of the gathered edge messages, the node-degree column, the bias row, the readout row and the readout
  bias —; the edge messages are the edge region's output array, `edgeMsg` of the hyperedge features, the weights and the
  hyperedge-degree column; and those are the host operations' values on the arguments. The host stages are named by the
  reference's stage functions (`val_main_vN`), which are the same operations of the same arguments.
-/
import proofs.«174897_j59811714564726_1_alg».proof.Proof.Gen.KernelIdeal.Frame
import proofs.«174897_j59811714564726_1_alg».proof.Proof.Gen.ReferenceIdeal.Read
import proofs.«174897_j59811714564726_1_alg».proof.Proof.KernelArr
import Idealize.ShloMosaic.Lib.StableHlo.Run

set_option maxRecDepth 16384

noncomputable section

namespace Cert.KernelFold

open Cert.KernelIdeal Cert.KernelIdeal.Gen Cert.KernelArr
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays at launch. -/
abbrev a0 : S100000x128.Idx → EReal := m ((c : Thread nD τ).loc main_arg0)
abbrev a1 : S128x128.Idx → EReal := m ((c : Thread nD τ).loc main_arg1)
abbrev a2 : S128.Idx → EReal := m ((c : Thread nD τ).loc main_arg2)
abbrev a3 : S1x128.Idx → EReal := m ((c : Thread nD τ).loc main_arg3)
abbrev a4 : S1.Idx → EReal := m ((c : Thread nD τ).loc main_arg4)
abbrev a5 : IVec S1600000 32 := m ((c : Thread nD τ).loc main_arg5)
abbrev a6 : IVec S1600000 32 := m ((c : Thread nD τ).loc main_arg6)

/-! ## Before the edge region -/

theorem w1_v23 : W1 m ρ c (Proc.devRef .tc main_v23) = Cert.ReferenceIdeal.Read.val_main_v23 (F := Ideal) (a0 m c) (a5 m c) (a6 m c) := by
  show StableHlo.after hostOps0 (W0 m ρ c) (Proc.devRef .tc main_v23) = _
  after_results_simp
  rfl

theorem w1_v35 : W1 m ρ c (Proc.devRef .tc main_v35)
    = shapeCast S20000x1 (Cert.ReferenceIdeal.Read.val_main_v34 (F := Ideal) (a5 m c) (a6 m c)) shapeCasts_S20000_S20000x1 := by
  show StableHlo.after hostOps0 (W0 m ρ c) (Proc.devRef .tc main_v35) = _
  after_results_simp
  rfl

theorem w1_v5 : W1 m ρ c (Proc.devRef .tc main_v5) = Cert.ReferenceIdeal.Read.val_main_v5 (F := Ideal) (a5 m c) := by
  show StableHlo.after hostOps0 (W0 m ρ c) (Proc.devRef .tc main_v5) = _
  after_results_simp
  rfl

theorem w1_arg1 : W1 m ρ c (Proc.devRef .tc main_arg1) = a1 m c := by
  show StableHlo.after hostOps0 (W0 m ρ c) (Proc.devRef .tc main_arg1) = _
  after_results_simp
theorem w1_arg2 : W1 m ρ c (Proc.devRef .tc main_arg2) = a2 m c := by
  show StableHlo.after hostOps0 (W0 m ρ c) (Proc.devRef .tc main_arg2) = _
  after_results_simp
theorem w1_arg3 : W1 m ρ c (Proc.devRef .tc main_arg3) = a3 m c := by
  show StableHlo.after hostOps0 (W0 m ρ c) (Proc.devRef .tc main_arg3) = _
  after_results_simp
theorem w1_arg4 : W1 m ρ c (Proc.devRef .tc main_arg4) = a4 m c := by
  show StableHlo.after hostOps0 (W0 m ρ c) (Proc.devRef .tc main_arg4) = _
  after_results_simp
theorem w1_arg5 : W1 m ρ c (Proc.devRef .tc main_arg5) = a5 m c := by
  show StableHlo.after hostOps0 (W0 m ρ c) (Proc.devRef .tc main_arg5) = _
  after_results_simp
theorem w1_arg6 : W1 m ρ c (Proc.devRef .tc main_arg6) = a6 m c := by
  show StableHlo.after hostOps0 (W0 m ρ c) (Proc.devRef .tc main_arg6) = _
  after_results_simp

/-! ## The edge region's exit -/

/-- The edge messages: the edge region's output array. -/
abbrev msgs : S20000x128.Idx → EReal :=
  edgeMsg (Cert.ReferenceIdeal.Read.val_main_v23 (F := Ideal) (a0 m c) (a5 m c) (a6 m c)) (a1 m c)
    (shapeCast S20000x1 (Cert.ReferenceIdeal.Read.val_main_v34 (F := Ideal) (a5 m c) (a6 m c)) shapeCasts_S20000_S20000x1)

theorem w2_v36 : W2 m ρ c (Proc.devRef .tc main_v36) = msgs m c := by
  refine (W2_arr m ρ c 3).trans ((edge_array (V1 m ρ) c).trans ?_)
  show edgeMsg (W1 m ρ c (Proc.devRef .tc main_v23)) (W1 m ρ c (Proc.devRef .tc main_arg1)) (W1 m ρ c (Proc.devRef .tc main_v35)) = _
  rw [w1_v23, w1_arg1, w1_v35]

theorem w2_v5 : W2 m ρ c (Proc.devRef .tc main_v5) = Cert.ReferenceIdeal.Read.val_main_v5 (F := Ideal) (a5 m c) :=
  (W2_of_ne m ρ c main_v5 (by decide)).trans (w1_v5 m ρ c)
theorem w2_arg2 : W2 m ρ c (Proc.devRef .tc main_arg2) = a2 m c := (W2_of_ne m ρ c main_arg2 (by decide)).trans (w1_arg2 m ρ c)
theorem w2_arg3 : W2 m ρ c (Proc.devRef .tc main_arg3) = a3 m c := (W2_of_ne m ρ c main_arg3 (by decide)).trans (w1_arg3 m ρ c)
theorem w2_arg4 : W2 m ρ c (Proc.devRef .tc main_arg4) = a4 m c := (W2_of_ne m ρ c main_arg4 (by decide)).trans (w1_arg4 m ρ c)
theorem w2_arg5 : W2 m ρ c (Proc.devRef .tc main_arg5) = a5 m c := (W2_of_ne m ρ c main_arg5 (by decide)).trans (w1_arg5 m ρ c)
theorem w2_arg6 : W2 m ρ c (Proc.devRef .tc main_arg6) = a6 m c := (W2_of_ne m ρ c main_arg6 (by decide)).trans (w1_arg6 m ρ c)

/-! ## Before the node region -/

/-- The aggregated messages per node: the scatter-add, by node index, of the edge messages gathered by hyperedge index. -/
abbrev aggr : S100000x128.Idx → EReal :=
  Host.scatterAdd (F := Ideal) (φ := .f32) Cert.ReferenceIdeal.scatter_S100000x128_S1600000x1_S1600000x128_1_0_0_1
    (Cert.ReferenceIdeal.Read.val_main_v47 (F := Ideal)) (Cert.ReferenceIdeal.Read.val_main_v48 (F := Ideal) (a5 m c))
    (Host.gather (α := Ideal .f32) Cert.ReferenceIdeal.gather_S20000x128_S1600000x1_S1600000x128_1_0_n_n_0_1_1128 (msgs m c)
      (Cert.ReferenceIdeal.Read.val_main_v45 (F := Ideal) (a6 m c)))

theorem w3_v46 : W3 m ρ c (Proc.devRef .tc main_v46) = aggr m c := by
  show StableHlo.after hostOps1 (W2 m ρ c) (Proc.devRef .tc main_v46) = _
  after_results
  rw [w2_v36, w2_arg5, w2_arg6]
  rfl

theorem w3_v47 : W3 m ρ c (Proc.devRef .tc main_v47)
    = shapeCast S100000x1 (Cert.ReferenceIdeal.Read.val_main_v5 (F := Ideal) (a5 m c)) shapeCasts_S100000_S100000x1 := by
  show StableHlo.after hostOps1 (W2 m ρ c) (Proc.devRef .tc main_v47) = _
  after_results_simp
  rw [w2_v5]
  rfl
theorem w3_v48 : W3 m ρ c (Proc.devRef .tc main_v48) = shapeCast S1x128 (a2 m c) shapeCasts_S128_S1x128 := by
  show StableHlo.after hostOps1 (W2 m ρ c) (Proc.devRef .tc main_v48) = _
  after_results_simp
  rw [w2_arg2]
  rfl
theorem w3_v49 : W3 m ρ c (Proc.devRef .tc main_v49) = shapeCast S1x1 (a4 m c) shapeCasts_S1_S1x1 := by
  show StableHlo.after hostOps1 (W2 m ρ c) (Proc.devRef .tc main_v49) = _
  after_results_simp
  rw [w2_arg4]
  rfl
theorem w3_arg3 : W3 m ρ c (Proc.devRef .tc main_arg3) = a3 m c := by
  show StableHlo.after hostOps1 (W2 m ρ c) (Proc.devRef .tc main_arg3) = _
  after_results_simp
  rw [w2_arg3]

/-! ## The node region's exit and the result -/

/-- The node region's output column. -/
abbrev outCol : S100000x1.Idx → EReal :=
  nodeOut (aggr m c) (shapeCast S100000x1 (Cert.ReferenceIdeal.Read.val_main_v5 (F := Ideal) (a5 m c)) shapeCasts_S100000_S100000x1)
    (shapeCast S1x128 (a2 m c) shapeCasts_S128_S1x128) (a3 m c) (shapeCast S1x1 (a4 m c) shapeCasts_S1_S1x1)

theorem w4_v50 : W4 m ρ c (Proc.devRef .tc main_v50) = outCol m c := by
  refine (W4_arr m ρ c 5).trans ((node_array (V3 m ρ) c).trans ?_)
  show nodeOut (W3 m ρ c (Proc.devRef .tc main_v46)) (W3 m ρ c (Proc.devRef .tc main_v47)) (W3 m ρ c (Proc.devRef .tc main_v48))
    (W3 m ρ c (Proc.devRef .tc main_arg3)) (W3 m ρ c (Proc.devRef .tc main_v49)) = _
  rw [w3_v46, w3_v47, w3_v48, w3_arg3, w3_v49]

/-- THE KERNEL PROGRAM'S RESULT ARRAY: the output column reshaped to a vector. -/
theorem w5_result : W5 m ρ c (Proc.devRef .tc main_v51) = shapeCast S100000 (outCol m c) shapeCasts_S100000x1_S100000 := by
  show StableHlo.after hostOps2 (W4 m ρ c) (Proc.devRef .tc main_v51) = _
  after_results_simp
  rw [w4_v50]
  rfl

end Cert.KernelFold

end
-- ==== Proof.LibVecScatterAdd.lean ====
/-
  A float vector scatter-add read at an entry, over the extended reals.

  `x.at[g].add(u)` for a vector `x` of length `N`, an `[E, 1]` matrix `g` of integer indices and a vector `u` of `E` updates lowers
  to a `stablehlo.scatter` with an `add` body whose dimension numbers are: no update window axis, operand axis 0 inserted,
  scatter axis 0 mapped to operand axis 0, the index vector along axis 1 of `g`. Update `e` lands on entry `g[e, 0]` (read as a
  signed integer) when that lies in `[0, N)`, and nowhere otherwise. At the ideal instance the result's entry `v` is therefore
  `x v + ∑ e, [g e = v] · u e`; with `x = 0` and `u = 1` (the histogram idiom `zeros(N).at[g].add(1)`) it counts the indices equal
  to `v`, written here as a sum of zeros and ones.

  Everything is stated for arbitrary extents `N`, `E` and any integer width of the indices; a printed record
  `scatter_S<N>_S<E>x1_S<E>_n_0_0_1` is `dims` of its own well-formedness proof by `rfl`.
-/
import Idealize.ShloMosaic.PureOps.Ideal
import Idealize.ShloMosaic.PureOps.Contract
import Idealize.ShloMosaic.Lib.ValueIdx

noncomputable section

namespace Cert.Lib.VecScatter

open Idealize.ShloMosaic Idealize.ShloMosaic.ValueIdx

variable {N E : Nat}

/-- The dimension numbers of `x.at[g].add(u)`: `x` of shape `[N]`, `g` of shape `[E, 1]`, `u` of shape `[E]`. -/
abbrev dims (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  { updateWindowDims := [], insertedWindowDims := [0], scatterDimsToOperandDims := [0], indexVectorDim := 1, wf := wf }

variable (wf : ScatterDims.WF (⟨1, ![N]⟩ : Shape) (⟨2, ![E, 1]⟩ : Shape) (⟨1, ![E]⟩ : Shape) [] [0] [0] 1)

/-- Update `e` reads its start index at row `e`, column 0 of the index matrix. -/
theorem siIdx_eq (e : Fin E) (c : Fin ([0] : List (Fin 1)).length) : (dims wf).siIdx (ix1 e) c = ix2 e 0 := by
  funext b
  match b with
  | ⟨0, _⟩ => exact Fin.ext rfl
  | ⟨1, _⟩ =>
    apply Fin.ext
    have hc : c.val < 1 := c.isLt
    show c.val = 0
    omega

/-- The window of update `e` starts, on the operand's one axis, at its index read signed. -/
theorem start_eq {w : Nat} (idx : IVec (⟨2, ![E, 1]⟩ : Shape) w) (e : Fin E) (a : Fin 1) :
    (dims wf).start (ix1 e) idx a = (idx (ix2 e 0)).toInt := by
  obtain rfl : a = 0 := Subsingleton.elim _ _
  unfold ScatterDims.start
  rw [dif_pos (List.mem_singleton.2 rfl), siIdx_eq]

/-- An update is one number: its window has no extent, so the coordinate inside it is 0. -/
theorem window_eq (e : Fin E) (a : Fin 1) : (dims wf).window (ix1 e) a = 0 := by
  obtain rfl : a = 0 := Subsingleton.elim _ _
  unfold ScatterDims.window
  have hk : (dims wf).sKept = [] := rfl
  rw [dif_neg (by rw [hk]; exact List.not_mem_nil)]

/-- Update `e` lands on entry `v` exactly when its index, read signed, is `v`. -/
theorem resultIdx?_eq_some_iff {w : Nat} (idx : IVec (⟨2, ![E, 1]⟩ : Shape) w) (e : Fin E) (v : Fin N) :
    (dims wf).resultIdx? (ix1 e) idx = some (ix1 v) ↔ (idx (ix2 e 0)).toInt = (v.val : Int) := by
  unfold ScatterDims.resultIdx?
  by_cases h : ∀ a, 0 ≤ (dims wf).start (ix1 e) idx a + (dims wf).window (ix1 e) a
      ∧ (dims wf).start (ix1 e) idx a + (dims wf).window (ix1 e) a < (⟨1, ![N]⟩ : Shape).size a
  · rw [dif_pos h]
    have h0 := h 0
    rw [start_eq, window_eq] at h0
    constructor
    · intro hs
      have := congrArg Fin.val (congrFun (Option.some.inj hs) 0)
      simp only [start_eq, window_eq] at this
      have hv : ((idx (ix2 e 0)).toInt + ((0 : ℕ) : ℤ)).toNat = v.val := this
      omega
    · intro hx
      refine congrArg some (funext fun a => ?_)
      obtain rfl : a = 0 := Subsingleton.elim _ _
      apply Fin.ext
      simp only [start_eq, window_eq]
      show ((idx (ix2 e 0)).toInt + 0).toNat = v.val
      omega
  · rw [dif_neg h]
    constructor
    · intro hs; exact absurd hs (by simp)
    · intro hx
      exfalso; apply h
      intro a
      obtain rfl : a = 0 := Subsingleton.elim _ _
      rw [start_eq, window_eq]
      have hN : (⟨1, ![N]⟩ : Shape).size 0 = N := rfl
      rw [hN, hx]
      have := v.isLt
      omega

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-- `x.at[g].add(u)` read at entry `v`: the operand's entry plus the updates whose index, read signed, is `v`
    (an index outside `[0, N)` lands nowhere). No finiteness is needed: it is the definition re-indexed. -/
theorem hostScatterAdd_apply {w : Nat} (x : (⟨1, ![N]⟩ : Shape).Idx → EReal) (idx : IVec (⟨2, ![E, 1]⟩ : Shape) w)
    (upd : (⟨1, ![E]⟩ : Shape).Idx → EReal) (v : Fin N) :
    Ideal.hostScatterAdd (dims wf) x idx upd (ix1 v)
      = x (ix1 v) + ∑ e : Fin E, if (idx (ix2 e 0)).toInt = (v.val : Int) then upd (ix1 e) else 0 := by
  unfold Ideal.hostScatterAdd
  congr 1
  rw [Finset.sum_filter, sum_idx1]
  exact Finset.sum_congr rfl fun e _ => if_congr (resultIdx?_eq_some_iff wf idx e v) rfl rfl

/-- The histogram idiom `zeros(N).at[g].add(1)`: entry `v` counts the indices equal to `v`, as a sum of zeros and ones. -/
theorem hostScatterAdd_count {w : Nat} (idx : IVec (⟨2, ![E, 1]⟩ : Shape) w) (v : Fin N) :
    Ideal.hostScatterAdd (dims wf) (fun _ => (0 : EReal)) idx (fun _ => (1 : EReal)) (ix1 v)
      = ∑ e : Fin E, if (idx (ix2 e 0)).toInt = (v.val : Int) then (1 : EReal) else 0 := by
  rw [hostScatterAdd_apply, zero_add]

/-- The same two readings for the host operation as a program prints it, at the ideal instance and any float format. -/
theorem host_scatterAdd_apply {φ : FTy} {w : Nat} (x : FVec Ideal (⟨1, ![N]⟩ : Shape) φ) (idx : IVec (⟨2, ![E, 1]⟩ : Shape) w)
    (upd : FVec Ideal (⟨1, ![E]⟩ : Shape) φ) (v : Fin N) :
    Host.scatterAdd (F := Ideal) (dims wf) x idx upd (ix1 v)
      = (x (ix1 v) + ∑ e : Fin E, if (idx (ix2 e 0)).toInt = (v.val : Int) then upd (ix1 e) else (0 : EReal) : EReal) :=
  hostScatterAdd_apply wf x idx upd v

theorem host_scatterAdd_count {φ : FTy} {w : Nat} (idx : IVec (⟨2, ![E, 1]⟩ : Shape) w) (v : Fin N) :
    Host.scatterAdd (F := Ideal) (φ := φ) (dims wf) (fun _ => (0 : EReal)) idx (fun _ => (1 : EReal)) (ix1 v)
      = ∑ e : Fin E, if (idx (ix2 e 0)).toInt = (v.val : Int) then (1 : EReal) else 0 :=
  hostScatterAdd_count wf idx v

end Cert.Lib.VecScatter

end
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.Law.lean ====
/-
  Facts about the extended reals that the bridge between the two programs needs.

  * Scaling by the reciprocal square root against dividing by the square root: for every extended real `a` and every
    `d > 0` (a positive real, or +∞), `a · rsqrt d = a / sqrt d`. At `d = 0` the two sides differ when `a = 0`
    (`0 · ∞ = 0` against the junk value of `0 / 0`), so positivity of `d` is what the bridge has to supply.
  * Sums of finitely many terms in `[0, +∞)` stay in `[0, +∞)`, and a sum of non-negative terms dominates each term.
  * A quotient `s / c` with `s > 0` and `1 ≤ c < +∞` is positive.
-/
import Idealize.ShloMosaic.PureOps.Ideal

noncomputable section

namespace Cert.Law

open Idealize.ShloMosaic

/-- `a · rsqrt d = a / sqrt d` for `d > 0`. -/
theorem mul_rsqrt_eq_div_sqrt (a d : EReal) (hd : 0 < d) : a * Ideal.rsqrt d = Ideal.div a (Ideal.sqrt d) := by
  induction d using EReal.rec with
  | bot => exact absurd hd (not_lt_bot)
  | top =>
    rw [Ideal.rsqrt_top, Ideal.sqrt_top, Ideal.div, if_neg (by simp), EReal.inv_top]
  | coe r =>
    have hr : 0 < r := by exact_mod_cast hd
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- A finite sum of terms of `[0, +∞)` is in `[0, +∞)`. -/
theorem sum_nonneg_ne_top {ι : Type} (s : Finset ι) (f : ι → EReal) (h : ∀ i ∈ s, 0 ≤ f i ∧ f i ≠ ⊤) :
    0 ≤ ∑ i ∈ s, f i ∧ ∑ i ∈ s, f i ≠ ⊤ := by
  classical
  induction s using Finset.induction_on with
  | empty => simp
  | insert a s ha ih =>
    rw [Finset.sum_insert ha]
    have h1 := h a (Finset.mem_insert_self a s)
    have h2 := ih fun i hi => h i (Finset.mem_insert_of_mem hi)
    exact ⟨add_nonneg h1.1 h2.1, EReal.add_ne_top h1.2 h2.2⟩

/-- A sum of non-negative terms dominates each of its terms. -/
theorem le_sum_of_nonneg {ι : Type} (s : Finset ι) (f : ι → EReal) (h : ∀ i ∈ s, 0 ≤ f i) (a : ι) (ha : a ∈ s) :
    f a ≤ ∑ i ∈ s, f i :=
  Finset.single_le_sum h ha

/-- `s / c > 0` when `s > 0` and `1 ≤ c < +∞`. -/
theorem div_pos_of (s c : EReal) (hs : 0 < s) (hc : 1 ≤ c) (hc' : c ≠ ⊤) : 0 < Ideal.div s c := by
  have hc0 : 0 < c := lt_of_lt_of_le zero_lt_one hc
  rw [Ideal.div, if_neg hc0.ne']
  exact EReal.mul_pos hs (EReal.inv_pos_of_pos_ne_top hc0 hc')

/-- The larger of a number of `[0, +∞)` and 1 is in `[1, +∞)`. -/
theorem max_one (x : EReal) (hx : x ≠ ⊤) : 1 ≤ max x 1 ∧ max x 1 ≠ ⊤ := by
  refine ⟨le_max_right _ _, ?_⟩
  rcases max_choice x 1 with h | h <;> rw [h]
  · exact hx
  · exact (EReal.coe_ne_top 1)

end Cert.Law

end
-- ==== Proof.RefSide.lean ====
/-
  The reference's stages that the bridge opens, at the ideal instance.

  Notation: `ni`, `ei` are the node and hyperedge index of each of the 1,600,000 incidence pairs. The stages
  (the generated stage functions `val_main_vN`) are
    deg_n  = max(#{q : ni q = n}, 1)                              (v5)
    cnt_e  = max(#{q : ei q = e}, 1)                              (v10)
    deg_e  = (∑_{q : ei q = e} deg_n[ni q]) / cnt_e               (v34)
    m_e    = (he · w) / sqrt(deg_e)                               (v39),   he = v23.
  Facts proved here: deg_n ≥ 1 everywhere; cnt_e ∈ [1, +∞); deg_e[e] > 0 for every hyperedge `e` that occurs as the
  index of some pair (that pair's own node degree, at least 1, is one of the non-negative terms of the sum); the
  entry of m_e at `(e, k)` as a quotient of the row-times-column sum by sqrt(deg_e[e]); and the index column that the
  gather of m_e's rows reads is the hyperedge index itself when that index is non-negative.
-/
import proofs.«174897_j59811714564726_1_alg».proof.Proof.Gen.ReferenceIdeal.Run
import proofs.«174897_j59811714564726_1_alg».proof.Proof.Gen.ReferenceIdeal.Read
import proofs.«174897_j59811714564726_1_alg».proof.Proof.LibVecScatterAdd
import proofs.«174897_j59811714564726_1_alg».proof.Proof.LibRowGather
import proofs.«174897_j59811714564726_1_alg».proof.Proof.LibIndexNorm
import proofs.«174897_j59811714564726_1_alg».proof.Proof.Law
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- The f32 word of 1.0 is the real number one. -/
theorem one_f32 : Ideal.ofBits .f32 0x3F800000#32 = 1 := by
  simp [Ideal.ofBits, Ideal.ieee]
  rw [← EReal.coe_mul, ← EReal.coe_one]
  congr 1
  norm_num

/-- A one-column index matrix read at `(q, 0)` reads the vector at `q`. -/
theorem col_idx (f : S1600000x1.Idx → S1600000.Idx) (hf : ∀ i, (f i 0).val = (i 0).val) (q : Fin 1600000) :
    f (ix2 q (0 : Fin 1)) = ix1 q := by
  funext a
  obtain rfl : a = 0 := Subsingleton.elim _ _
  exact Fin.ext (hf _)

variable (x0 : (⟨S100000x128, .f32⟩ : BufTy).Contents (Elt Ideal)) (x1 : (⟨S128x128, .f32⟩ : BufTy).Contents (Elt Ideal))
  (x5 x6 : (⟨S1600000, .i32⟩ : BufTy).Contents (Elt Ideal))

/-- The vector of ones. -/
theorem ones_apply (i : S1600000.Idx) : val_main_v0 (F := Ideal) i = (1 : EReal) := by
  rw [val_main_v0_apply, val_main_cst_apply]; exact one_f32

/-- Node degrees are at least one. -/
theorem degn_ge_one (i : S100000.Idx) : (1 : EReal) ≤ val_main_v5 (F := Ideal) x5 i := by
  rw [val_main_v5_apply, val_main_v4_apply, val_main_cst_1_apply]
  show (1 : EReal) ≤ max _ (Ideal.ofBits .f32 0x3F800000#32)
  rw [one_f32]; exact le_max_right _ _

/-- The number of pairs of hyperedge `e`, as a sum of zeros and ones. -/
theorem count_apply (e : Fin 20000) :
    val_main_v8 (F := Ideal) x6 (ix1 e)
      = (0 : EReal) + ∑ q : Fin 1600000, if (x6 (ix1 q)).toInt = (e.val : Int) then (1 : EReal) else 0 := by
  refine (Cert.Lib.VecScatter.host_scatterAdd_apply (φ := .f32) scatter_S20000_S1600000x1_S1600000_n_0_0_1.wf
    (val_main_v6 (F := Ideal)) (val_main_v7 (F := Ideal) x6) (val_main_v0 (F := Ideal)) e).trans ?_
  refine congrArg₂ (· + ·) ?_ ?_
  · rw [val_main_v6_apply, val_main_cst_2_apply]; exact Ideal.ofBits_zero_f32
  · refine Finset.sum_congr rfl fun q _ => ?_
    rw [val_main_v7_apply, ones_apply, col_idx idx_main_v7 (fun _ => rfl)]

/-- The clamped pair count of a hyperedge lies in `[1, +∞)`. -/
theorem cnt_bounds (e : Fin 20000) :
    (1 : EReal) ≤ val_main_v10 (F := Ideal) x6 (ix1 e) ∧ val_main_v10 (F := Ideal) x6 (ix1 e) ≠ ⊤ := by
  rw [val_main_v10_apply, val_main_v9_apply, val_main_cst_3_apply]
  show (1 : EReal) ≤ max _ (Ideal.ofBits .f32 0x3F800000#32) ∧ max _ (Ideal.ofBits .f32 0x3F800000#32) ≠ ⊤
  rw [one_f32]
  refine Cert.Law.max_one _ ?_
  rw [count_apply, zero_add]
  exact (Cert.Law.sum_nonneg_ne_top Finset.univ _ fun q _ => by
    split
    · exact ⟨zero_le_one, EReal.coe_ne_top 1⟩
    · exact ⟨le_rfl, EReal.zero_ne_top⟩).2

/-- The gathered node degree of a pair is at least one (whatever row the clamped index selects). -/
theorem pair_degn_ge_one (q : Fin 1600000) : (1 : EReal) ≤ val_main_v30 (F := Ideal) x5 (ix1 q) := by
  unfold val_main_v30
  refine le_of_le_of_eq (degn_ge_one x5 _) (Cert.Lib.RowGather.vecGather_apply (N := 100000) (R := 1600000) (by norm_num)
    gather_S100000_S1600000x1_S1600000_n_0_n_n_0_1_1.wf (val_main_v5 (F := Ideal) x5) (val_main_v29 (F := Ideal) x5) q).symm

/-- The degree sum of hyperedge `e`: the gathered node degrees of its pairs. -/
theorem degsum_apply (e : Fin 20000) :
    val_main_v33 (F := Ideal) x5 x6 (ix1 e)
      = (0 : EReal) + ∑ q : Fin 1600000, if (x6 (ix1 q)).toInt = (e.val : Int) then val_main_v30 (F := Ideal) x5 (ix1 q) else 0 := by
  refine (Cert.Lib.VecScatter.host_scatterAdd_apply (φ := .f32) scatter_S20000_S1600000x1_S1600000_n_0_0_1.wf
    (val_main_v31 (F := Ideal)) (val_main_v32 (F := Ideal) x6) (val_main_v30 (F := Ideal) x5) e).trans ?_
  refine congrArg₂ (· + ·) ?_ ?_
  · rw [val_main_v31_apply, val_main_cst_8_apply]; exact Ideal.ofBits_zero_f32
  · refine Finset.sum_congr rfl fun q _ => ?_
    rw [val_main_v32_apply, col_idx idx_main_v32 (fun _ => rfl)]

/-- THE HYPEREDGE DEGREE IS POSITIVE at every hyperedge that is the index of some pair. -/
theorem dege_pos (p : Fin 1600000) (e : Fin 20000) (he : (x6 (ix1 p)).toInt = (e.val : Int)) :
    (0 : EReal) < val_main_v34 (F := Ideal) x5 x6 (ix1 e) := by
  rw [val_main_v34_apply]
  obtain ⟨h1, h2⟩ := cnt_bounds x6 e
  refine Cert.Law.div_pos_of _ _ ?_ h1 h2
  rw [degsum_apply, zero_add]
  refine lt_of_lt_of_le zero_lt_one ((pair_degn_ge_one x5 p).trans ?_)
  have h := Cert.Law.le_sum_of_nonneg Finset.univ
    (fun q : Fin 1600000 => if (x6 (ix1 q)).toInt = (e.val : Int) then val_main_v30 (F := Ideal) x5 (ix1 q) else 0)
    (fun q _ => by
      show (0 : EReal) ≤ if (x6 (ix1 q)).toInt = (e.val : Int) then val_main_v30 (F := Ideal) x5 (ix1 q) else 0
      split
      · exact zero_le_one.trans (pair_degn_ge_one x5 q)
      · exact le_rfl) p (Finset.mem_univ p)
  simp only [if_pos he] at h
  exact h

/-- The reference's edge message at `(e, k)`: the row of `he` against the column of `w`, divided by `sqrt(deg_e[e])`. -/
theorem msg_apply (e : Fin 20000) (k : Fin 128) :
    val_main_v39 (F := Ideal) x0 x1 x5 x6 (ix2 e k)
      = Ideal.div (∑ j : Fin 128, val_main_v23 (F := Ideal) x0 x5 x6 (ix2 e j) * x1 (ix2 j k))
          (Ideal.sqrt (val_main_v34 (F := Ideal) x5 x6 (ix1 e))) := by
  rw [val_main_v39_apply, val_main_v35_apply, val_main_v38_apply, val_main_v37_apply, val_main_v36_apply]
  have e1 : idx_main_v37 (idx_main_v38 (ix2 e k)) = ix1 e := by
    funext a; obtain rfl : a = 0 := Subsingleton.elim _ _; rfl
  have e2 : ∀ j : Fin 128, lidx_main_v35 (ix2 e k) j = ix2 e j := fun j => by
    funext a; match a with | ⟨0, _⟩ => rfl | ⟨1, _⟩ => rfl
  have e3 : ∀ j : Fin 128, ridx_main_v35 (ix2 e k) j = ix2 j k := fun j => by
    funext a; match a with | ⟨0, _⟩ => rfl | ⟨1, _⟩ => rfl
  simp only [e1, e2, e3, Ideal.hostDivf_def, Ideal.hostUnary_sqrt_def]

/-- The index column the gather of edge messages reads: at a pair whose hyperedge index is non-negative it is that index. -/
theorem gather_col (q : Fin 1600000) (h : 0 ≤ (x6 (ix1 q)).toInt) :
    val_main_v45 (F := Ideal) x6 (ix2 q (0 : Fin 1)) = x6 (ix1 q) := by
  rw [val_main_v45_apply, col_idx idx_main_v45 (fun _ => rfl)]
  unfold val_main_v44 val_main_v41 val_main_v43
  refine Cert.Lib.IndexNorm.select_wrap_apply x6 (val_main_v40 (F := Ideal)) (val_main_v42 (F := Ideal)) (ix1 q) ?_ h
  rw [val_main_v40_apply, val_main_c_9_apply]

end Cert.RefSide

end
-- ==== Proof.Bridge.lean ====
/-
  The two programs' results are one function of the arguments when every hyperedge index lies in `[0, 20000)`.

  Both programs aggregate per node the edge messages gathered by hyperedge index. The kernel's message is
  `(he · w) * rsqrt(deg_e)`, the reference's `(he · w) / sqrt(deg_e)`; they agree at every hyperedge of positive degree, and
  every GATHERED hyperedge has positive degree: it is the index of the gathering pair, whose own node degree (at least 1)
  is a term of the degree sum. So the gathered messages, hence the aggregates, are equal as whole arrays. The node
  side is the same law at the node degree, which is at least 1 everywhere:
  `max(agg * rsqrt(d) + b, 0) = max(agg / sqrt(d) + b, 0)`, summed against the readout row plus the readout bias.
-/
import proofs.«174897_j59811714564726_1_alg».proof.Proof.RefSide
import proofs.«174897_j59811714564726_1_alg».proof.Proof.KernelArr

set_option maxRecDepth 16384

noncomputable section

namespace Cert.Bridge

open Cert.ReferenceIdeal Cert.ReferenceIdeal.Gen Cert.ReferenceIdeal.Read Idealize.ShloMosaic Idealize.ShloMosaic.ValueIdx
open Cert.KernelArr (edgeMsg nodeOut)

/-- Every hyperedge index, read signed, names one of the 20000 hyperedges. -/
def EdgeInRange (x6 : IVec S1600000 32) : Prop :=
  ∀ p : Fin 1600000, 0 ≤ (x6 (ix1 p)).toInt ∧ (x6 (ix1 p)).toInt < 20000

variable (x0 : S100000x128.Idx → EReal) (x1 : S128x128.Idx → EReal) (x2 : S128.Idx → EReal) (x3 : S1x128.Idx → EReal)
  (x4 : S1.Idx → EReal) (x5 x6 : IVec S1600000 32)

/-- At the hyperedge `e` of a pair `p` the two edge messages agree. -/
theorem msg_eq (h34 : S20000.ShapeCasts S20000x1) (p : Fin 1600000) (e : Fin 20000) (he : (x6 (ix1 p)).toInt = (e.val : Int))
    (k : Fin 128) :
    edgeMsg (val_main_v23 (F := Ideal) x0 x5 x6) x1 (shapeCast S20000x1 (val_main_v34 (F := Ideal) x5 x6) h34) (ix2 e k)
      = val_main_v39 (F := Ideal) x0 x1 x5 x6 (ix2 e k) := by
  rw [Cert.RefSide.msg_apply]
  show (∑ j : Fin 128, val_main_v23 (F := Ideal) x0 x5 x6 (ix2 e j) * x1 (ix2 j k))
      * Ideal.rsqrt (shapeCast S20000x1 (val_main_v34 (F := Ideal) x5 x6) h34 (ix2 e (0 : Fin 1))) = _
  rw [Cert.Lib.Keepdims.shapeCast_a_a1_apply]
  exact Cert.Law.mul_rsqrt_eq_div_sqrt _ _ (Cert.RefSide.dege_pos x5 x6 p e he)

/-- The gathered edge messages are the same array in both programs. -/
theorem gathered_eq (hr : EdgeInRange x6) (h34 : S20000.ShapeCasts S20000x1) :
    Host.gather (α := Ideal .f32) gather_S20000x128_S1600000x1_S1600000x128_1_0_n_n_0_1_1128
        (edgeMsg (val_main_v23 (F := Ideal) x0 x5 x6) x1 (shapeCast S20000x1 (val_main_v34 (F := Ideal) x5 x6) h34))
        (val_main_v45 (F := Ideal) x6)
      = val_main_v46 (F := Ideal) x0 x1 x5 x6 := by
  unfold val_main_v46
  funext i
  obtain ⟨p, k, rfl⟩ : ∃ (p : Fin 1600000) (k : Fin 128), i = ix2 p k := ⟨i 0, i 1, eq_ix2 i⟩
  obtain ⟨h0, h1⟩ := hr p
  have hc : val_main_v45 (F := Ideal) x6 (ix2 p (0 : Fin 1)) = x6 (ix1 p) := Cert.RefSide.gather_col x6 p h0
  have he : (x6 (ix1 p)).toInt
      = ((min (val_main_v45 (F := Ideal) x6 (ix2 p (0 : Fin 1))).toInt.toNat (20000 - 1) : Nat) : Int) := by
    rw [hc]; omega
  refine (Cert.Lib.RowGather.rowGather_apply (N := 20000) (K := 128) (R := 1600000) (by norm_num)
      gather_S20000x128_S1600000x1_S1600000x128_1_0_n_n_0_1_1128.wf _ (val_main_v45 (F := Ideal) x6) p k).trans
    ((msg_eq x0 x1 x5 x6 h34 p ⟨min (val_main_v45 (F := Ideal) x6 (ix2 p (0 : Fin 1))).toInt.toNat (20000 - 1), by omega⟩ he k).trans
      (Cert.Lib.RowGather.rowGather_apply (N := 20000) (K := 128) (R := 1600000) (by norm_num)
        gather_S20000x128_S1600000x1_S1600000x128_1_0_n_n_0_1_1128.wf (val_main_v39 (F := Ideal) x0 x1 x5 x6)
        (val_main_v45 (F := Ideal) x6) p k).symm)

/-- The aggregates per node are the same array in both programs. -/
theorem aggregate_eq (hr : EdgeInRange x6) (h34 : S20000.ShapeCasts S20000x1) :
    Host.scatterAdd (F := Ideal) (φ := .f32) scatter_S100000x128_S1600000x1_S1600000x128_1_0_0_1 (val_main_v47 (F := Ideal))
        (val_main_v48 (F := Ideal) x5)
        (Host.gather (α := Ideal .f32) gather_S20000x128_S1600000x1_S1600000x128_1_0_n_n_0_1_1128
          (edgeMsg (val_main_v23 (F := Ideal) x0 x5 x6) x1 (shapeCast S20000x1 (val_main_v34 (F := Ideal) x5 x6) h34))
          (val_main_v45 (F := Ideal) x6))
      = val_main_v49 (F := Ideal) x0 x1 x5 x6 := by
  rw [gathered_eq x0 x1 x5 x6 hr h34]
  rfl

/-- THE OUTPUT COLUMNS AGREE: the kernel's node readout of the aggregate is the reference's column before its final reshape. -/
theorem column_eq (hr : EdgeInRange x6) (h34 : S20000.ShapeCasts S20000x1) (h5 : S100000.ShapeCasts S100000x1)
    (h2 : S128.ShapeCasts S1x128) (h4 : S1.ShapeCasts S1x1) :
    nodeOut
        (Host.scatterAdd (F := Ideal) (φ := .f32) scatter_S100000x128_S1600000x1_S1600000x128_1_0_0_1 (val_main_v47 (F := Ideal))
          (val_main_v48 (F := Ideal) x5)
          (Host.gather (α := Ideal .f32) gather_S20000x128_S1600000x1_S1600000x128_1_0_n_n_0_1_1128
            (edgeMsg (val_main_v23 (F := Ideal) x0 x5 x6) x1 (shapeCast S20000x1 (val_main_v34 (F := Ideal) x5 x6) h34))
            (val_main_v45 (F := Ideal) x6)))
        (shapeCast S100000x1 (val_main_v5 (F := Ideal) x5) h5) (shapeCast S1x128 x2 h2) x3 (shapeCast S1x1 x4 h4)
      = val_main_v62 (F := Ideal) x0 x1 x2 x3 x4 x5 x6 := by
  rw [aggregate_eq x0 x1 x5 x6 hr h34]
  funext i
  obtain ⟨n, u, rfl⟩ : ∃ (n : Fin 100000) (u : Fin 1), i = ix2 n u := ⟨i 0, i 1, eq_ix2 i⟩
  obtain rfl : u = 0 := Subsingleton.elim _ _
  rw [val_main_v62_apply, val_main_v59_apply, val_main_v61_apply, val_main_v60_apply]
  show (∑ k : Fin 128, max (val_main_v49 (F := Ideal) x0 x1 x5 x6 (ix2 n k)
          * Ideal.rsqrt (shapeCast S100000x1 (val_main_v5 (F := Ideal) x5) h5 (ix2 n (0 : Fin 1))) + shapeCast S1x128 x2 h2 (ix2 (0 : Fin 1) k)) 0
        * x3 (ix2 (0 : Fin 1) k)) + shapeCast S1x1 x4 h4 (ix2 (0 : Fin 1) (0 : Fin 1)) = _
  rw [Cert.Lib.Keepdims.shapeCast_a_a1_apply, Cert.Lib.Keepdims.shapeCast_a_a1_apply]
  refine congrArg₂ (· + ·) (Finset.sum_congr rfl fun k _ => ?_) ?_
  · rw [shapeCast_a_1a_apply, val_main_v57_apply, val_main_v58_apply, val_main_v56_apply, val_main_v53_apply, val_main_v55_apply,
      val_main_v54_apply, val_main_v52_apply, val_main_v51_apply, val_main_v50_apply, val_main_call0_v0_apply, val_main_call0_cst_apply]
    have e1 : lidx_main_v59 (ix2 n (0 : Fin 1)) k = ix2 n k := by
      funext a; match a with | ⟨0, _⟩ => rfl | ⟨1, _⟩ => rfl
    have e2 : idx_main_v58 (ridx_main_v59 (ix2 n (0 : Fin 1)) k) = ix2 (0 : Fin 1) k := by
      funext a; match a with | ⟨0, _⟩ => rfl | ⟨1, _⟩ => rfl
    rw [e1, e2]
    have e3 : idx_main_v54 (idx_main_v55 (ix2 n k)) = ix1 k := by
      funext a; obtain rfl : a = 0 := Subsingleton.elim _ _; rfl
    have e4 : idx_main_v51 (idx_main_v52 (ix2 n k)) = ix1 n := by
      funext a; obtain rfl : a = 0 := Subsingleton.elim _ _; rfl
    rw [e3, e4]
    have hd : (0 : EReal) < val_main_v5 (F := Ideal) x5 (ix1 n) := lt_of_lt_of_le zero_lt_one (Cert.RefSide.degn_ge_one x5 (ix1 n))
    rw [Cert.Law.mul_rsqrt_eq_div_sqrt _ _ hd]
    simp only [Ideal.hostDivf_def, Ideal.hostUnary_sqrt_def, Ideal.addf_def, Ideal.maximumf_def, Ideal.ofBits_def,
      Ideal.ofBits_zero_f32]
  · exact congrArg x4 (funext fun a => by obtain rfl : a = 0 := Subsingleton.elim _ _; rfl)

end Cert.Bridge

end
-- ==== Proof.PreRange.lean ====
/-
  The precondition read at one pair: its last conjunct says that every hyperedge index, read as a signed 32-bit
  integer, is at least 0 and below 20000. The conjunction of the six checks is all ones, so its last factor — the
  `and` over all 1,600,000 pairs of `(ei ≥ 0) ∧ (ei < 20000)` — is one, hence so is each pair's factor.
-/
import proofs.«174897_j59811714564726_1_alg».proof.Defs
import proofs.«174897_j59811714564726_1_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.PreRange

open Cert.Pre_finite_inputs Idealize.ShloMosaic Idealize.ShloMosaic.ValueIdx

instance : Subsingleton S_.Idx := ⟨fun a b => funext fun d => d.elim0⟩

theorem edge_in_range (x0 : FVec Ideal S100000x128 .f32) (x1 : FVec Ideal S128x128 .f32) (x2 : FVec Ideal S128 .f32)
    (x3 : FVec Ideal S1x128 .f32) (x4 : FVec Ideal S1 .f32) (x5 x6 : IVec S1600000 32)
    (h : fn (F := Ideal) x0 x1 x2 x3 x4 x5 x6 = fun _ => 1#1) (p : Fin 1600000) :
    0 ≤ (x6 (ix1 p)).toInt ∧ (x6 (ix1 p)).toInt < 20000 := by
  have e := congrFun h ix0
  unfold fn at e
  dsimp only at e
  unfold fn_part1 at e
  dsimp only at e
  have e2 : IntOp.andi _ (Host.reduce IntOp.andi _ _ _ _ ix0) = 1#1 := e
  have q := Host.reduce_andi_all _ _ _ _ ix0 (IntOp.andi_eq_one.mp e2).2 (ix1 p)
  have q' : IntOp.andi (IntOp.cmpi .sge (x6 (ix1 p)) 0#32) (IntOp.cmpi .slt (x6 (ix1 p)) 20000#32) = 1#1 := q
  obtain ⟨q1, q2⟩ := IntOp.andi_eq_one.mp q'
  have r1 := IntOp.cmpi_sge.mp q1
  have r2 := IntOp.cmpi_slt.mp q2
  have z0 : (0#32 : BitVec 32).toInt = 0 := by decide
  have z1 : (20000#32 : BitVec 32).toInt = 20000 := by decide
  omega

end Cert.PreRange

end
-- ==== Proof.lean ====
/-
  The claims of this certificate.

  The program computes a hypergraph convolution with a linear readout: node and hyperedge degrees by scatter-add over
  the 1,600,000 incidence pairs, hyperedge features as the mean of member node features, edge messages
  `(he · w) scaled by deg_e^(-1/2)`, their aggregation per node, `relu(agg scaled by deg_n^(-1/2) + b)` and a dot product
  with the readout row. The kernel scales by `rsqrt(d)`, the reference divides by `sqrt(d)`: one function on the extended
  reals wherever `d > 0`. Node degrees are at least 1. A hyperedge degree is positive at every hyperedge that is the index of
  some pair, and only those rows of the edge messages are ever gathered — given that the hyperedge indices lie in
  `[0, 20000)`, the precondition's added conjunct (outside that range the gather clamps to a row whose degree may be 0, where
  `0 · rsqrt 0 = 0` and `0 / sqrt 0` differ).

  The three frames are the generated ones (the reference's is its run with the result dropped); the idealization ledger is
  empty; the value claim joins the kernel program's run, read back through its five segments to one term of the arguments
  (Proof/KernelRun, Proof/KernelFold over Proof/KernelArr and Proof/KernelPay), with the reference's generated run
  (Proof/Bridge over Proof/RefSide and Proof/Law; the range of the indices from Proof/PreRange).
-/
import proofs.«174897_j59811714564726_1_alg».proof.Defs
import proofs.«174897_j59811714564726_1_alg».proof.Proof.Gen.Kernel
import proofs.«174897_j59811714564726_1_alg».proof.Proof.Gen.Kernel.Skeleton
import proofs.«174897_j59811714564726_1_alg».proof.Proof.Gen.Kernel.Launch
import proofs.«174897_j59811714564726_1_alg».proof.Proof.Gen.Kernel.Points
import proofs.«174897_j59811714564726_1_alg».proof.Proof.Gen.Kernel.Frame
import proofs.«174897_j59811714564726_1_alg».proof.Proof.Gen.KernelIdeal
import proofs.«174897_j59811714564726_1_alg».proof.Proof.Gen.KernelIdeal.Skeleton
import proofs.«174897_j59811714564726_1_alg».proof.Proof.Gen.KernelIdeal.Launch
import proofs.«174897_j59811714564726_1_alg».proof.Proof.Gen.KernelIdeal.Points
import proofs.«174897_j59811714564726_1_alg».proof.Proof.Gen.KernelIdeal.Frame
import proofs.«174897_j59811714564726_1_alg».proof.Proof.Gen.ReferenceIdeal
import proofs.«174897_j59811714564726_1_alg».proof.Proof.Gen.ReferenceIdeal.Run
import proofs.«174897_j59811714564726_1_alg».proof.Proof.Gen.ReferenceIdeal.Read
import proofs.«174897_j59811714564726_1_alg».proof.Proof.Gen.Pre_finite_inputs
import proofs.«174897_j59811714564726_1_alg».proof.Proof.KernelRun
import proofs.«174897_j59811714564726_1_alg».proof.Proof.KernelFold
import proofs.«174897_j59811714564726_1_alg».proof.Proof.Bridge
import proofs.«174897_j59811714564726_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No rewrite was applied when the kernel was idealized: nothing to preserve. -/
theorem preserves : Cert.preserves_Kernel_KernelIdeal := trivial

/-- Both programs end with the result array at the node readout column reshaped to a vector; the columns are equal. -/
theorem algebraic : Cert.algebraic_KernelIdeal_ReferenceIdeal := by
  intro m ρ m' ρ' hpre hagree
  refine ⟨fun c => shapeCast Cert.KernelIdeal.S100000 (Cert.KernelFold.outCol m c) Cert.KernelIdeal.Gen.shapeCasts_S100000x1_S100000,
    (θ_run Cert.KernelIdeal.defs _ _).mono (fun r h c => ⟨(h c).1.trans (Cert.KernelFold.w5_result m ρ c), (h c).2⟩)
      (Cert.KernelRun.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq]
  obtain ⟨e0, e1, e2, e3, e4, e5, e6⟩ := hagree c
  rw [e0, e1, e2, e3, e4, e5, e6]
  have hr : Cert.Bridge.EdgeInRange (Cert.KernelFold.a6 m c) := fun p =>
    Cert.PreRange.edge_in_range _ _ _ _ _ _ _ (hpre c) p
  unfold Cert.ReferenceIdeal.Read.val_main_v63
  exact congrArg (fun y => shapeCast Cert.ReferenceIdeal.S100000 y Cert.ReferenceIdeal.Gen.shapeCasts_S100000x1_S100000)
    (Cert.Bridge.column_eq (Cert.KernelFold.a0 m c) (Cert.KernelFold.a1 m c) (Cert.KernelFold.a2 m c) (Cert.KernelFold.a3 m c)
      (Cert.KernelFold.a4 m c) (Cert.KernelFold.a5 m c) (Cert.KernelFold.a6 m c) hr
      Cert.KernelIdeal.Gen.shapeCasts_S20000_S20000x1 Cert.KernelIdeal.Gen.shapeCasts_S100000_S100000x1
      Cert.KernelIdeal.Gen.shapeCasts_S128_S1x128 Cert.KernelIdeal.Gen.shapeCasts_S1_S1x1).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
